-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S2048x2 : Shape := ⟨2, ![2048, 2]⟩
abbrev S_ : Shape := ⟨0, ![]⟩
abbrev S8x256x2 : Shape := ⟨3, ![8, 256, 2]⟩
abbrev S8x256x1 : Shape := ⟨3, ![8, 256, 1]⟩
abbrev S8x256 : Shape := ⟨2, ![8, 256]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S2048x2 : S_.BroadcastsInDim S2048x2 (![] : Fin 0 → Fin S2048x2.rank)
  reducesTo_S2048x2_S_d0_1 : S2048x2.ReducesTo [0, 1] S_
  shapeCasts_S2048x2_S8x256x2 : S2048x2.ShapeCasts S8x256x2
  slices_S8x256x2_S8x256x1_0_0_1 : S8x256x2.Slices ![0, 0, 1] S8x256x1
  shapeCasts_S8x256x1_S8x256 : S8x256x1.ShapeCasts S8x256
  bcast_S_S8x256 : S_.BroadcastsInDim S8x256 (![] : Fin 0 → Fin S8x256.rank)
  reducesTo_S8x256_S_d0_1 : S8x256.ReducesTo [0, 1] S_

variable [Facts]

def fn {F : FTy → Type} [FloatOps F] (main_arg0 : FVec F S16x2048x256 .f32) (main_arg1 : FVec F S2048x2 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S2048x2 .f32 := Host.absf main_arg1
  let main_cst_0 : FVec F S_ .f32 := constant S_ .f32 0x7F800000#32
  let main_v5 : FVec F S2048x2 .f32 := broadcastInDim S2048x2 ![] bcast_S_S2048x2 main_cst_0
  let main_v6 : IVec S2048x2 1 := cmpf .olt main_v4 main_v5
  let main_c_1 : IVec S_ 1 := constantI S_ 1 1#1
  let main_v7 : IVec S_ 1 := (fun x v => Host.reduce IntOp.andi x v reducesTo_S2048x2_S_d0_1 h_S_) main_v6 main_c_1
  let main_v8 : IVec S_ 1 := andi main_v3 main_v7
  let main_v9 : FVec F S8x256x2 .f32 := shapeCast S8x256x2 main_arg1 shapeCasts_S2048x2_S8x256x2
  let main_v10 : FVec F S8x256x1 .f32 := (extractStridedSlice S8x256x1 ![0, 0, 1] · slices_S8x256x2_S8x256x1_0_0_1) main_v9
  let main_v11 : FVec F S8x256 .f32 := shapeCast S8x256 main_v10 shapeCasts_S8x256x1_S8x256
  let main_cst_2 : FVec F S_ .f32 := constant S_ .f32 0x00000000#32
  let main_v12 : FVec F S8x256 .f32 := broadcastInDim S8x256 ![] bcast_S_S8x256 main_cst_2
  let main_v13 : IVec S8x256 1 := cmpf .une main_v11 main_v12
  let main_c_3 : IVec S_ 1 := constantI S_ 1 1#1
  let main_v14 : IVec S_ 1 := (fun x v => Host.reduce IntOp.andi x v reducesTo_S8x256_S_d0_1 h_S_) main_v13 main_c_3
  let main_v15 : IVec S_ 1 := andi main_v8 main_v14
  main_v15
-- ==== Kernel.lean ====
abbrev S16x2048x256 : Shape := ⟨3, ![16, 2048, 256]⟩
abbrev S2048x2 : Shape := ⟨2, ![2048, 2]⟩
abbrev S8x256x2 : Shape := ⟨3, ![8, 256, 2]⟩
abbrev S8x256x1 : Shape := ⟨3, ![8, 256, 1]⟩
abbrev S8x256 : Shape := ⟨2, ![8, 256]⟩
abbrev S16x2048x2048 : Shape := ⟨3, ![16, 2048, 2048]⟩
abbrev S1x2048x256 : Shape := ⟨3, ![1, 2048, 256]⟩
abbrev S1x2048x2048 : Shape := ⟨3, ![1, 2048, 2048]⟩
abbrev S2048x256 : Shape := ⟨2, ![2048, 256]⟩
abbrev S1x256 : Shape := ⟨2, ![1, 256]⟩
abbrev S256 : Shape := ⟨1, ![256]⟩

abbrev nBuf : Space → Nat
  | .hbm => 8
  | .vmem => 6
  | .smem => 0
  | _ => 0

abbrev bufTy : (tb : Table) → Fin (tcTables nBuf tb) → BufTy
  | .hbm, ⟨0, _⟩ => ⟨S16x2048x256, .f32⟩
  | .hbm, ⟨1, _⟩ => ⟨S2048x2, .f32⟩
  | .hbm, ⟨2, _⟩ => ⟨S8x256x2, .f32⟩
  | .hbm, ⟨3, _⟩ => ⟨S8x256x1, .f32⟩
  | .hbm, ⟨4, _⟩ => ⟨S8x256, .f32⟩
  | .hbm, ⟨5, _⟩ => ⟨S8x256x1, .f32⟩
  | .hbm, ⟨6, _⟩ => ⟨S8x256, .f32⟩
  | .hbm, ⟨7, _⟩ => ⟨S16x2048x2048, .f32⟩
  | .local _ .vmem, ⟨0, _⟩ => ⟨S1x2048x256, .f32⟩
  | .local _ .vmem, ⟨1, _⟩ => ⟨S1x2048x256, .f32⟩
  | .local _ .vmem, ⟨2, _⟩ => ⟨S8x256, .f32⟩
  | .local _ .vmem, ⟨3, _⟩ => ⟨S8x256, .f32⟩
  | .local _ .vmem, ⟨4, _⟩ => ⟨S1x2048x2048, .f32⟩
  | .local _ .vmem, ⟨5, _⟩ => ⟨S1x2048x2048, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2048x2_S8x256x2 : S2048x2.ShapeCasts S8x256x2
  slices_S8x256x2_S8x256x1_0_0_0 : S8x256x2.Slices ![0, 0, 0] S8x256x1
  shapeCasts_S8x256x1_S8x256 : S8x256x1.ShapeCasts S8x256
  slices_S8x256x2_S8x256x1_0_0_1 : S8x256x2.Slices ![0, 0, 1] S8x256x1
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  slices_S8x256_o0_0_S1x256 : S8x256.Slices ![0, 0] S1x256
  shapeCasts_S1x256_S256 : S1x256.ShapeCasts S256
  shapeCasts_S256_S1x256 : S256.ShapeCasts S1x256
  broadcasts_S1x256_S2048x256 : S1x256.Broadcasts S2048x256
  inb_S1x2048x2048_S1x2048x256_0_0_0 : ∀ a, (![0, 0, 0] : Fin 3 → Nat) a + S1x2048x256.size a ≤ S1x2048x2048.size a
  shapeCasts_S2048x256_S1x2048x256 : S2048x256.ShapeCasts S1x2048x256
  slices_S8x256_o1_0_S1x256 : S8x256.Slices ![1, 0] S1x256
  inb_S1x2048x2048_S1x2048x256_0_0_256 : ∀ a, (![0, 0, 256] : Fin 3 → Nat) a + S1x2048x256.size a ≤ S1x2048x2048.size a
  slices_S8x256_o2_0_S1x256 : S8x256.Slices ![2, 0] S1x256
  inb_S1x2048x2048_S1x2048x256_0_0_512 : ∀ a, (![0, 0, 512] : Fin 3 → Nat) a + S1x2048x256.size a ≤ S1x2048x2048.size a
  slices_S8x256_o3_0_S1x256 : S8x256.Slices ![3, 0] S1x256
  inb_S1x2048x2048_S1x2048x256_0_0_768 : ∀ a, (![0, 0, 768] : Fin 3 → Nat) a + S1x2048x256.size a ≤ S1x2048x2048.size a
  slices_S8x256_o4_0_S1x256 : S8x256.Slices ![4, 0] S1x256
  inb_S1x2048x2048_S1x2048x256_0_0_1024 : ∀ a, (![0, 0, 1024] : Fin 3 → Nat) a + S1x2048x256.size a ≤ S1x2048x2048.size a
  slices_S8x256_o5_0_S1x256 : S8x256.Slices ![5, 0] S1x256
  inb_S1x2048x2048_S1x2048x256_0_0_1280 : ∀ a, (![0, 0, 1280] : Fin 3 → Nat) a + S1x2048x256.size a ≤ S1x2048x2048.size a
  slices_S8x256_o6_0_S1x256 : S8x256.Slices ![6, 0] S1x256
  inb_S1x2048x2048_S1x2048x256_0_0_1536 : ∀ a, (![0, 0, 1536] : Fin 3 → Nat) a + S1x2048x256.size a ≤ S1x2048x2048.size a
  slices_S8x256_o7_0_S1x256 : S8x256.Slices ![7, 0] S1x256
  inb_S1x2048x2048_S1x2048x256_0_0_1792 : ∀ a, (![0, 0, 1792] : Fin 3 → Nat) a + S1x2048x256.size a ≤ S1x2048x2048.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x2048x256.size a
  hwx0_0 : ∀ i : grid0.Coords, EltTy.bits .f32 = 32 ∨ (Rect.block (s := S16x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x256.size a
  hwx0_1 : ∀ i : grid0.Coords, EltTy.bits .f32 = 32 ∨ (Rect.block (s := S8x256) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x256.size a
  hwx0_2 : ∀ i : grid0.Coords, EltTy.bits .f32 = 32 ∨ (Rect.block (s := S8x256) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x2048.size a ≤ S16x2048x2048.size a
  hwx0_3 : ∀ i : grid0.Coords, EltTy.bits .f32 = 32 ∨ (Rect.block (s := S16x2048x2048) S1x2048x2048.size (cc0_transform_3 i) (hinb0_3 i)).WholeWords (EltTy.packing .f32)

variable [Facts₀]

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S2048x2 : Shape := ⟨2, ![2048, 2]⟩
abbrev S8x256x2 : Shape := ⟨3, ![8, 256, 2]⟩
abbrev S8x256x1 : Shape := ⟨3, ![8, 256, 1]⟩
abbrev S8x256 : Shape := ⟨2, ![8, 256]⟩
abbrev S16x2048x1x256 : Shape := ⟨4, ![16, 2048, 1, 256]⟩
abbrev S1x1x8x256 : Shape := ⟨4, ![1, 1, 8, 256]⟩
abbrev S16x2048x8x256 : Shape := ⟨4, ![16, 2048, 8, 256]⟩
abbrev S16x2048x2048 : Shape := ⟨3, ![16, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S2048x2, .f32⟩
  | .hbm, ⟨2, _⟩ => ⟨S8x256x2, .f32⟩
  | .hbm, ⟨3, _⟩ => ⟨S8x256x1, .f32⟩
  | .hbm, ⟨4, _⟩ => ⟨S8x256, .f32⟩
  | .hbm, ⟨5, _⟩ => ⟨S8x256x1, .f32⟩
  | .hbm, ⟨6, _⟩ => ⟨S8x256, .f32⟩
  | .hbm, ⟨7, _⟩ => ⟨S16x2048x1x256, .f32⟩
  | .hbm, ⟨8, _⟩ => ⟨S1x1x8x256, .f32⟩
  | .hbm, ⟨9, _⟩ => ⟨S16x2048x8x256, .f32⟩
  | .hbm, ⟨10, _⟩ => ⟨S16x2048x8x256, .f32⟩
  | .hbm, ⟨11, _⟩ => ⟨S16x2048x8x256, .f32⟩
  | .hbm, ⟨12, _⟩ => ⟨S16x2048x8x256, .f32⟩
  | .hbm, ⟨13, _⟩ => ⟨S16x2048x8x256, .f32⟩
  | .hbm, ⟨14, _⟩ => ⟨S1x1x8x256, .f32⟩
  | .hbm, ⟨15, _⟩ => ⟨S16x2048x8x256, .f32⟩
  | .hbm, ⟨16, _⟩ => ⟨S16x2048x8x256, .f32⟩
  | .hbm, ⟨17, _⟩ => ⟨S16x2048x8x256, .f32⟩
  | .hbm, ⟨18, _⟩ => ⟨S16x2048x2048, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩

abbrev nD : Nat := 1
abbrev τ : Topo := Topo.v7x

variable {F : FTy → Type} [FloatOps F]

class Facts₀ : Prop where
  shapeCasts_S2048x2_S8x256x2 : S2048x2.ShapeCasts S8x256x2
  slices_S8x256x2_S8x256x1_0_0_0 : S8x256x2.Slices ![0, 0, 0] S8x256x1
  shapeCasts_S8x256x1_S8x256 : S8x256x1.ShapeCasts S8x256
  slices_S8x256x2_S8x256x1_0_0_1 : S8x256x2.Slices ![0, 0, 1] S8x256x1
  bcast_S16x2048x256_S16x2048x1x256_0_1_3 : S16x2048x256.BroadcastsInDim S16x2048x1x256 (![0, 1, 3] : Fin 3 → Fin S16x2048x1x256.rank)
  bcast_S8x256_S1x1x8x256_2_3 : S8x256.BroadcastsInDim S1x1x8x256 (![2, 3] : Fin 2 → Fin S1x1x8x256.rank)
  bcast_S16x2048x1x256_S16x2048x8x256_0_1_2_3 : S16x2048x1x256.BroadcastsInDim S16x2048x8x256 (![0, 1, 2, 3] : Fin 4 → Fin S16x2048x8x256.rank)
  bcast_S1x1x8x256_S16x2048x8x256_0_1_2_3 : S1x1x8x256.BroadcastsInDim S16x2048x8x256 (![0, 1, 2, 3] : Fin 4 → Fin S16x2048x8x256.rank)
  shapeCasts_S16x2048x8x256_S16x2048x2048 : S16x2048x8x256.ShapeCasts S16x2048x2048

variable [Facts₀]

class Facts : Prop extends Facts₀ where

variable [Facts]
-- ==== Proof.Membership.lean ====
/-
  The Gaussian membership function, and the one law that joins its two spellings.

  For an input x[b, s, i], centres mu[d, i] and widths sg[d, i], the membership array is
      out[b, s, d·256 + i] = exp( −(x[b, s, i] − mu[d, i])² / sg[d, i] ),
  the degree d and the feature i laid out together on the last axis, degree-major: a last-axis position l
  is degree l / 256, feature l mod 256.

  One spelling divides the negated square by the width; the other multiplies the square by the quotient
  (−1) / sg.  Off zero a quotient on the extended reals is the product with the inverse, so for sg ≠ 0
      a · ((−1) · sg⁻¹) = −(a · sg⁻¹) = (−a) · sg⁻¹
  by the sign rules of the product alone: no finiteness is used, and the infinities are covered.
  At sg = 0 the two spellings part (a quotient by zero is the infinity of the dividend's sign, and 0 / 0 is the
  bottom element), which is why the width is assumed nonzero.
-/
import Idealize.ShloMosaic.PureOps.Ideal
import Idealize.ShloMosaic.Lib.ValueIdx

noncomputable section

namespace Cert.Membership

open Idealize.ShloMosaic

/-- The input's shape [batch, sequence, feature]. -/
abbrev SIn : Shape := ⟨3, ![16, 2048, 256]⟩
/-- The centres' and the widths' shape [degree, feature]. -/
abbrev SPar : Shape := ⟨2, ![8, 256]⟩
/-- The result's shape [batch, sequence, degree·256 + feature]. -/
abbrev SOut : Shape := ⟨3, ![16, 2048, 2048]⟩

/-- The input element a result element is computed from: same batch and sequence position, feature l mod 256. -/
abbrev inputAt (i : SOut.Idx) : SIn.Idx := fun a => match a with
  | ⟨0, _⟩ => ⟨(i 0).val, (i 0).isLt⟩
  | ⟨1, _⟩ => ⟨(i 1).val, (i 1).isLt⟩
  | ⟨2, _⟩ => ⟨(i 2).val % 256, Nat.mod_lt _ (by decide)⟩

/-- The centre and width a result element is computed from: degree l / 256, feature l mod 256. -/
abbrev paramAt (i : SOut.Idx) : SPar.Idx := fun a => match a with
  | ⟨0, _⟩ => ⟨(i 2).val / 256, by have h : (i 2).val < 2048 := (i 2).isLt; show (i 2).val / 256 < 8; omega⟩
  | ⟨1, _⟩ => ⟨(i 2).val % 256, Nat.mod_lt _ (by decide)⟩

/-- The membership array, the square multiplied by the quotient (−1) / sg; −1 is written as its f32 pattern. -/
def membership (x : SIn.Idx → EReal) (mu sg : SPar.Idx → EReal) : SOut.Idx → EReal := fun i =>
  Ideal.exp ((x (inputAt i) - mu (paramAt i)) * (x (inputAt i) - mu (paramAt i))
    * Ideal.div (Ideal.ofBits .f32 0xBF800000#32) (sg (paramAt i)))

/-- The f32 pattern with the sign bit set, the biased exponent 127 and a zero fraction denotes −1. -/
theorem neg_one_f32 : Ideal.ofBits .f32 0xBF800000#32 = (-1 : EReal) := by
  have h : Ideal.ofBits .f32 0xBF800000#32 = ((-1 : ℝ) : EReal) := by
    simp [Ideal.ofBits, Ideal.ieee, -EReal.coe_mul]; norm_num
  rw [h, EReal.coe_neg, EReal.coe_one]

/-- THE LAW: for a nonzero width, multiplying by the quotient (−1) / sg is dividing the negation by sg. -/
theorem mul_neg_one_div (a s : EReal) (hs : s ≠ 0) :
    a * Ideal.div (Ideal.ofBits .f32 0xBF800000#32) s = Ideal.div (-a) s := by
  rw [neg_one_f32, Ideal.div, Ideal.div, if_neg hs, if_neg hs, neg_one_mul, mul_neg, neg_mul]

end Cert.Membership

end
-- ==== Proof.WidthNonzero.lean ====
/-
  The precondition's third test read back: every width is nonzero.

  The precondition is a conjunction of three tests, each an array of comparisons reduced by `and` over every axis
  into one bit, the bits joined by `and`; the claim is that the result is 1.  The third test compares the widths
      sg = (the parameter table [2048, 2] recast to [8, 256, 2], its column 1, recast to [8, 256])
  with zero, entry by entry, for inequality.  Read backwards: a conjunction that is 1 has both conjuncts 1; a
  reduction by `and` into one result that is 1 met a 1 at every index; the zero pattern denotes 0; and an
  inequality test that answers 1 compared two different extended reals.  Hence sg j ≠ 0 at every index j.
-/
import proofs.«120113_j10264971838088_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.WidthNonzero

open Idealize.ShloMosaic Cert.Pre_finite_inputs Cert.Pre_finite_inputs.Facts

/-- An inequality test that answers 1 against zero compared a nonzero extended real. -/
theorem ne_zero_of_test (x : EReal) (h : Ideal.cmp .une x 0 = 1#1) : x ≠ 0 := by
  intro hx
  subst hx
  simp [Ideal.cmp] at h

/-- The rank-0 shape has exactly one index. -/
instance subsingleton_scalar : Subsingleton S_.Idx := ⟨fun _ _ => funext fun d => d.elim0⟩

variable [Cert.Pre_finite_inputs.Facts]

/-- The widths as the precondition computes them from the parameter table. -/
def widths (p : FVec Ideal S2048x2 .f32) : FVec Ideal S8x256 .f32 :=
  shapeCast S8x256 ((extractStridedSlice S8x256x1 ![0, 0, 1] · slices_S8x256x2_S8x256x1_0_0_1)
    (shapeCast S8x256x2 p shapeCasts_S2048x2_S8x256x2)) shapeCasts_S8x256x1_S8x256

/-- If the precondition's result is 1 then every width is nonzero. -/
theorem widths_ne_zero (x : FVec Ideal S16x2048x256 .f32) (p : FVec Ideal S2048x2 .f32)
    (h : Cert.Pre_finite_inputs.fn (F := Ideal) x p = fun _ => 1#1) (j : S8x256.Idx) : widths p j ≠ 0 := by
  have h0 := congrFun h ValueIdx.ix0
  dsimp only [Cert.Pre_finite_inputs.fn] at h0
  obtain ⟨-, h14⟩ := IntOp.andi_eq_one.1 h0
  have e := Host.reduce_andi_all _ _ _ _ ValueIdx.ix0 h14 j
  -- the comparison at index j, every array operation read at that index
  have e' : Ideal.cmp .une (widths p j) (Ideal.ofBits .f32 0x00000000#32) = 1#1 := e
  rw [Ideal.ofBits_zero_f32] at e'
  exact ne_zero_of_test _ e'

end Cert.WidthNonzero

end
-- ==== Proof.KernelValue.lean ====
/-
  The kernel leaves the membership array.

  The grid has one point per batch row b (16 points; the second grid axis has extent 1).  At point b the body
  loads the input's block [1, 2048, 256] (batch row b), the whole centres and widths [8, 256], and stores eight
  column slabs of the output block [1, 2048, 2048]: slab d, columns d·256 … d·256 + 255, holds
      exp( (x − mu[d])² · ((−1) / sg[d]) ).
  The slabs tile the block, so the block is ONE function of the loads: position (0, s, l) is computed from
  x(0, s, l mod 256), mu(l / 256, l mod 256), sg(l / 256, l mod 256).  Block b of the input is batch row b of the
  array, block b of the output batch row b of the result, and the blocks of the centres and widths are the whole
  arrays; hence what point b writes back is block b of the membership array, the 16 blocks cover the result,
  and the result array ends as the membership array.  The centres and widths the region reads are the parameter
  table [2048, 2] recast to [8, 256, 2], its column 0 or 1, recast to [8, 256].
-/
import proofs.«120113_j10264971838088_2_alg».proof.Proof.Gen.KernelIdeal.Value
import proofs.«120113_j10264971838088_2_alg».proof.Proof.Membership
import Idealize.ShloMosaic.Lib.StableHlo.Run

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.Pipeline (Dat)
open Cert.Membership

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block index maps, decided over the 16 grid points: the input's block moves with the output's along the
    batch axis, every other block coordinate is 0. -/
theorem index_facts : ∀ t : Fin cfg0.N,
    win0_0.index t (0 : Fin 3) = win0_3.index t (0 : Fin 3)
    ∧ win0_0.index t (1 : Fin 3) = 0 ∧ win0_0.index t (2 : Fin 3) = 0
    ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every batch row is some point's output block. -/
theorem point_of_row : ∀ q : Fin 16, ∃ t : Fin cfg0.N, win0_3.index t = ![q.val, 0, 0] :=
  (by decide +kernel : ∀ q : Fin 16, ∃ t : Fin grid0.N, win0_3.index t = ![q.val, 0, 0])

/-- ONE ENTRY OF A BLOCK: the block's function of the loads, at a block position whose three reads are the
    arrays' entries the membership array reads at result index i, is the membership array at i. -/
theorem block_entry (P0 : Vec Ideal S1x2048x256 .f32) (P1 P2 : Vec Ideal S8x256 .f32)
    (X : SIn.Idx → EReal) (MU SG : SPar.Idx → EReal) (y : S1x2048x2048.Idx) (i : SOut.Idx)
    (h0 : P0 (ix3_0 y) = X (inputAt i)) (h1 : P1 (ix3_1 y) = MU (paramAt i)) (h2 : P2 (ix3_4 y) = SG (paramAt i)) :
    E3 P0 P1 P2 y = membership X MU SG i := by
  unfold membership
  rw [← h0, ← h1, ← h2]
  rfl

/-- WHAT POINT t WRITES BACK is block t of the membership array of the arrays as the region finds them. -/
theorem flushed_eq (c : Dev nD) (t : Fin cfg0.N) :
    (dats m 0 c).flushed 3 t = ((cfg0.win 3).blk t).view.read (Elt Ideal)
      (membership (V m c main_arg0) (V m c main_v2) (V m c main_v4)) := by
  rw [flushed3]
  unfold out0_3
  simp only [View.ld_unit_zero (S := S1x2048x256) zeros3, View.ld_unit_zero (S := S8x256) zeros2]
  obtain ⟨e0, e1, e2, e3, e4, e5, e6, e7, e8⟩ := index_facts t
  funext y
  refine (canon3_eq (iblk m c 0 t) (iblk m c 1 t) (iblk m c 2 t) _).trans ?_
  have hy0 : (y 0).val < 1 := (y 0).isLt
  have hy1 : (y 1).val < 2048 := (y 1).isLt
  have hy2 : (y 2).val < 2048 := (y 2).isLt
  refine block_entry _ _ _ _ _ _ _ (((cfg0.win 3).blk t).view.emb y) ?_ ?_ ?_
  · show V m c main_arg0 (((cfg0.win 0).blk t).view.emb (ix3_0 y)) = V m c main_arg0 (inputAt (((cfg0.win 3).blk t).view.emb y))
    refine congrArg (V m c main_arg0) ?_
    funext a; apply Fin.ext
    match a with
    | ⟨0, _⟩ => show win0_0.index t (0 : Fin 3) * 1 + 1 * 0 = win0_3.index t (0 : Fin 3) * 1 + 1 * (y 0).val; omega
    | ⟨1, _⟩ => show win0_0.index t (1 : Fin 3) * 2048 + 1 * (y 1).val = win0_3.index t (1 : Fin 3) * 2048 + 1 * (y 1).val; omega
    | ⟨2, _⟩ => show win0_0.index t (2 : Fin 3) * 256 + 1 * ((y 2).val % 256) = (win0_3.index t (2 : Fin 3) * 2048 + 1 * (y 2).val) % 256; omega
  · show V m c main_v2 (((cfg0.win 1).blk t).view.emb (ix3_1 y)) = V m c main_v2 (paramAt (((cfg0.win 3).blk t).view.emb y))
    refine congrArg (V m c main_v2) ?_
    funext a; apply Fin.ext
    match a with
    | ⟨0, _⟩ => show win0_1.index t (0 : Fin 2) * 8 + 1 * ((y 2).val / 256) = (win0_3.index t (2 : Fin 3) * 2048 + 1 * (y 2).val) / 256; omega
    | ⟨1, _⟩ => show win0_1.index t (1 : Fin 2) * 256 + 1 * ((y 2).val % 256) = (win0_3.index t (2 : Fin 3) * 2048 + 1 * (y 2).val) % 256; omega
  · show V m c main_v4 (((cfg0.win 2).blk t).view.emb (ix3_4 y)) = V m c main_v4 (paramAt (((cfg0.win 3).blk t).view.emb y))
    refine congrArg (V m c main_v4) ?_
    funext a; apply Fin.ext
    match a with
    | ⟨0, _⟩ => show win0_2.index t (0 : Fin 2) * 8 + 1 * ((y 2).val / 256) = (win0_3.index t (2 : Fin 3) * 2048 + 1 * (y 2).val) / 256; omega
    | ⟨1, _⟩ => show win0_2.index t (1 : Fin 2) * 256 + 1 * ((y 2).val % 256) = (win0_3.index t (2 : Fin 3) * 2048 + 1 * (y 2).val) % 256; omega

/-- A result index is in point t's block iff each coordinate is in the block's range on its axis. -/
theorem mem_block (t : Fin cfg0.N) (i : S16x2048x2048.Idx) :
    i ∈ ((cfg0.win 3).blk t).view.set ↔ ∀ a : Fin 3, win0_3.index t a * S1x2048x2048.size a ≤ (i a).val
      ∧ (i a).val < win0_3.index t a * S1x2048x2048.size a + S1x2048x2048.size a := by
  show i ∈ ((View.whole main_v5).slice (win0_3.rect t)).set ↔ _
  rw [View.set_slice_whole, Rect.mem_set_unit]
  exact Iff.rfl

/-- THE COVER: result index (b, s, l) is in the block of the point whose batch row is b. -/
theorem covered (i : S16x2048x2048.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 2048 := (i 2).isLt
  obtain ⟨t, ht⟩ := point_of_row ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 2048 ≤ (i 2).val ∧ (i 2).val < win0_3.index t (2 : Fin 3) * 2048 + 2048; omega

/-- THE RESULT ARRAY after the run is the membership array of the arrays as the region finds them. -/
theorem final (c : Dev nD) :
    (dats m 0 c).arrAt 3 cfg0.N = membership (V m c main_arg0) (V m c main_v2) (V m c main_v4) :=
  (dats m 0 c).arrAt_eq_of_cover 3 _ (fun t _ => flushed_eq m c t) covered

/-- The centres as computed from the parameter table. -/
def centres (p : FVec Ideal S2048x2 .f32) : FVec Ideal S8x256 .f32 :=
  shapeCast S8x256 ((extractStridedSlice S8x256x1 ![0, 0, 0] · slices_S8x256x2_S8x256x1_0_0_0)
    (shapeCast S8x256x2 p shapeCasts_S2048x2_S8x256x2)) shapeCasts_S8x256x1_S8x256

/-- The widths as computed from the parameter table. -/
def widths (p : FVec Ideal S2048x2 .f32) : FVec Ideal S8x256 .f32 :=
  shapeCast S8x256 ((extractStridedSlice S8x256x1 ![0, 0, 1] · slices_S8x256x2_S8x256x1_0_0_1)
    (shapeCast S8x256x2 p shapeCasts_S2048x2_S8x256x2)) shapeCasts_S8x256x1_S8x256

/-- The region finds the centres computed from the parameter table as launched. -/
theorem found_centres (c : Dev nD) :
    (V m c main_v2 : S8x256.Idx → EReal) = centres (m ((c : Thread nD τ).loc main_arg1)) := by
  dsimp only [Gen.V, Gen.hostOps0]; after_results; rfl

/-- The region finds the widths computed from the parameter table as launched. -/
theorem found_widths (c : Dev nD) :
    (V m c main_v4 : S8x256.Idx → EReal) = widths (m ((c : Thread nD τ).loc main_arg1)) := by
  dsimp only [Gen.V, Gen.hostOps0]; after_results; rfl

/-- THE KERNEL'S RUN: every weakly fair execution terminates with the result array the membership array of the
    input and of the centres and widths computed from the parameter table, the arguments unchanged. -/
theorem run : θ_run defs (onTc (τ := τ) (main (F := Ideal))) ⟨m, fun _ => 0, ρ⟩ fun r => ∀ c : Dev nD,
      r.2.mem ((c : Thread nD τ).loc main_v5)
        = membership (m ((c : Thread nD τ).loc main_arg0)) (centres (m ((c : Thread nD τ).loc main_arg1)))
            (widths (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by
      rw [V_main_arg0, found_centres, found_widths])), (h c).2⟩)
    (run_blocks m ρ)

end Cert.KernelIdeal.ArrayValue

end
-- ==== Proof.ReferenceValue.lean ====
/-
  The reference computes the membership array.

  The reference lays the input out as [16, 2048, 1, 256] and the centres and widths as [1, 1, 8, 256], broadcasts
  all three to [16, 2048, 8, 256], forms  exp( (−(x − mu)²) / sg )  entry by entry and recasts the result to
  [16, 2048, 2048].  Read at a result index (b, s, l): the recast reads position (b, s, l / 256, l mod 256) of the
  rank-4 array (row-major order, 8 · 256 = 2048), and there the broadcasts read x[b, s, l mod 256],
  mu[l / 256, l mod 256] and sg[l / 256, l mod 256].  For a nonzero width, dividing the negated square by sg is
  multiplying the square by (−1) / sg, which is the membership array's spelling.
-/
import proofs.«120113_j10264971838088_2_alg».proof.Proof.Gen.ReferenceIdeal.Read
import proofs.«120113_j10264971838088_2_alg».proof.Proof.Membership

noncomputable section

namespace Cert.ReferenceIdeal.RefValue

open Cert.ReferenceIdeal Cert.ReferenceIdeal.Gen Cert.ReferenceIdeal.Read Idealize.ShloMosaic Cert.Membership

/-- Through the recast and the two broadcasts of the input, result index i reads the input at `inputAt i`. -/
theorem input_index (i : S16x2048x2048.Idx) : idx_main_v5 (idx_main_v7 (idx_main_v16 i)) = inputAt i := by
  have h0 : (i 0).val < 16 := (i 0).isLt
  have h1 : (i 1).val < 2048 := (i 1).isLt
  have h2 : (i 2).val < 2048 := (i 2).isLt
  funext a
  apply Fin.ext
  match a with
  | ⟨0, _⟩ => show (((i 0).val * 2048 + (i 1).val) * 2048 + (i 2).val) / 4194304 = (i 0).val; omega
  | ⟨1, _⟩ => show (((i 0).val * 2048 + (i 1).val) * 2048 + (i 2).val) / 2048 % 2048 = (i 1).val; omega
  | ⟨2, _⟩ => show (((i 0).val * 2048 + (i 1).val) * 2048 + (i 2).val) % 256 = (i 2).val % 256; omega

/-- Through the recast and the two broadcasts of the centres, result index i reads them at `paramAt i`. -/
theorem centre_index (i : S16x2048x2048.Idx) : idx_main_v6 (idx_main_v8 (idx_main_v16 i)) = paramAt i := by
  have h0 : (i 0).val < 16 := (i 0).isLt
  have h1 : (i 1).val < 2048 := (i 1).isLt
  have h2 : (i 2).val < 2048 := (i 2).isLt
  funext a
  apply Fin.ext
  match a with
  | ⟨0, _⟩ => show (((i 0).val * 2048 + (i 1).val) * 2048 + (i 2).val) / 256 % 8 = (i 2).val / 256; omega
  | ⟨1, _⟩ => show (((i 0).val * 2048 + (i 1).val) * 2048 + (i 2).val) % 256 = (i 2).val % 256; omega

/-- The widths are broadcast exactly as the centres are. -/
theorem width_index (i : S16x2048x2048.Idx) : idx_main_v12 (idx_main_v13 (idx_main_v16 i)) = paramAt i :=
  centre_index i

/-- THE REFERENCE IS THE MEMBERSHIP ARRAY of the input, the centres and the widths, when every width is nonzero. -/
theorem result_eq (x : (⟨S16x2048x256, .f32⟩ : BufTy).Contents (Elt Ideal)) (p : (⟨S2048x2, .f32⟩ : BufTy).Contents (Elt Ideal))
    (hs : ∀ j, val_main_v4 (F := Ideal) p j ≠ 0) :
    val_main_v16 (F := Ideal) x p = membership x (val_main_v2 (F := Ideal) p) (val_main_v4 (F := Ideal) p) := by
  funext i
  rw [val_main_v16_apply, val_main_v15_apply, val_main_v14_apply, val_main_v11_apply, val_main_v10_apply,
    val_main_v9_apply, val_main_v7_apply, val_main_v5_apply, val_main_v8_apply, val_main_v6_apply,
    val_main_v13_apply, val_main_v12_apply, input_index, centre_index, width_index]
  simp only [Ideal.subf_def, Ideal.mulf_def, Ideal.hostNegf_def, Ideal.negf_def, Ideal.hostDivf_def,
    Ideal.hostUnary_exp_def]
  unfold membership
  rw [mul_neg_one_div _ _ (hs (paramAt i))]

end Cert.ReferenceIdeal.RefValue

end
-- ==== Proof.lean ====
/-
  The Gaussian membership kernel against its reference, on the extended reals.

  Both programs take an input x[16, 2048, 256] and a parameter table [2048, 2] whose two columns, recast to
  [8, 256], are the centres mu[d, i] and the widths sg[d, i], and produce
      out[b, s, d·256 + i] = exp( −(x[b, s, i] − mu[d, i])² / sg[d, i] ).
  The reference divides the negated square by the width.  The kernel computes the quotient (−1) / sg once and
  multiplies the square by it, writing each degree d as a column slab of the output block of a batch row.
  For a nonzero width the two are equal on all extended reals (Membership.lean: a quotient off zero is a product
  with the inverse, and the sign moves across the product); the precondition says that every width is nonzero
  (WidthNonzero.lean reads it back), beside the finiteness of the inputs, which the proof does not use.

  The three frames: each kernel program's is its generated frame certificate; the reference's is its generated
  run with the value dropped.  The idealization rewrote nothing, so there is nothing to preserve.  For the
  equality of results, the kernel's run (KernelValue.lean) and the reference's (ReferenceValue.lean) are both
  stated with the membership array of the input, the centres and the widths as the result.
-/
import proofs.«120113_j10264971838088_2_alg».proof.Defs
import proofs.«120113_j10264971838088_2_alg».proof.Proof.Gen.Kernel
import proofs.«120113_j10264971838088_2_alg».proof.Proof.Gen.Kernel.Frame
import proofs.«120113_j10264971838088_2_alg».proof.Proof.Gen.KernelIdeal
import proofs.«120113_j10264971838088_2_alg».proof.Proof.Gen.KernelIdeal.Frame
import proofs.«120113_j10264971838088_2_alg».proof.Proof.Gen.KernelIdeal.Value
import proofs.«120113_j10264971838088_2_alg».proof.Proof.Gen.ReferenceIdeal
import proofs.«120113_j10264971838088_2_alg».proof.Proof.Gen.ReferenceIdeal.Run
import proofs.«120113_j10264971838088_2_alg».proof.Proof.Gen.ReferenceIdeal.Read
import proofs.«120113_j10264971838088_2_alg».proof.Proof.Gen.Pre_finite_inputs
import proofs.«120113_j10264971838088_2_alg».proof.Proof.Membership
import proofs.«120113_j10264971838088_2_alg».proof.Proof.WidthNonzero
import proofs.«120113_j10264971838088_2_alg».proof.Proof.KernelValue
import proofs.«120113_j10264971838088_2_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both runs end with the membership array of the input and of the
    centres and widths computed from the parameter table: the kernel's by its blocks, the reference's entry by
    entry, the widths nonzero by the precondition. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _
    (fun j => Cert.WidthNonzero.widths_ne_zero _ _ (hpre c) j)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
